-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32 : Shape := ⟨2, ![4096, 32]⟩
abbrev S8192x32 : Shape := ⟨2, ![8192, 32]⟩
abbrev S4096x8192 : Shape := ⟨2, ![4096, 8192]⟩
abbrev S4096 : Shape := ⟨1, ![4096]⟩
abbrev S_ : Shape := ⟨0, ![]⟩

class Facts : Prop where
  bcast_S_S4096x32 : S_.BroadcastsInDim S4096x32 (![] : Fin 0 → Fin S4096x32.rank)
  reducesTo_S4096x32_S_d0_1 : S4096x32.ReducesTo [0, 1] S_
  h_S_ : 0 < S_.numel
  bcast_S_S8192x32 : S_.BroadcastsInDim S8192x32 (![] : Fin 0 → Fin S8192x32.rank)
  reducesTo_S8192x32_S_d0_1 : S8192x32.ReducesTo [0, 1] S_
  bcast_S_S4096x8192 : S_.BroadcastsInDim S4096x8192 (![] : Fin 0 → Fin S4096x8192.rank)
  reducesTo_S4096x8192_S_d0_1 : S4096x8192.ReducesTo [0, 1] S_

variable [Facts]

def fn_part1 {F : FTy → Type} [FloatOps F] (main_v13 : IVec S_ 1) (main_v16 : IVec S4096x8192 1) : IVec S_ 1 :=
  let main_c_5 : IVec S_ 1 := constantI S_ 1 1#1
  let main_v17 : IVec S_ 1 := (fun x v => Host.reduce IntOp.andi x v reducesTo_S4096x8192_S_d0_1 h_S_) main_v16 main_c_5
  let main_v18 : IVec S_ 1 := andi main_v13 main_v17
  main_v18

def fn {F : FTy → Type} [FloatOps F] (main_arg0 : FVec F S4096x32 .f32) (main_arg1 : FVec F S8192x32 .f32) (main_arg2 : IVec S4096x8192 32) (main_arg3 : FVec F S4096x8192 .f32) (main_arg4 : FVec F S4096x8192 .f32) (main_arg5 : IVec S4096 32) : IVec S_ 1 :=
  let main_v0 : FVec F S4096x32 .f32 := Host.absf main_arg0
  let main_cst : FVec F S_ .f32 := constant S_ .f32 0x7F800000#32
  let main_v1 : FVec F S4096x32 .f32 := broadcastInDim S4096x32 ![] bcast_S_S4096x32 main_cst
  let main_v2 : IVec S4096x32 1 := cmpf .olt main_v0 main_v1
  let main_c : IVec S_ 1 := constantI S_ 1 1#1
  let main_v3 : IVec S_ 1 := (fun x v => Host.reduce IntOp.andi x v reducesTo_S4096x32_S_d0_1 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  let main_v9 : FVec F S4096x8192 .f32 := Host.absf main_arg3
  let main_cst_2 : FVec F S_ .f32 := constant S_ .f32 0x7F800000#32
  let main_v10 : FVec F S4096x8192 .f32 := broadcastInDim S4096x8192 ![] bcast_S_S4096x8192 main_cst_2
  let main_v11 : IVec S4096x8192 1 := cmpf .olt main_v9 main_v10
  let main_c_3 : IVec S_ 1 := constantI S_ 1 1#1
  let main_v12 : IVec S_ 1 := (fun x v => Host.reduce IntOp.andi x v reducesTo_S4096x8192_S_d0_1 h_S_) main_v11 main_c_3
  let main_v13 : IVec S_ 1 := andi main_v8 main_v12
  let main_v14 : FVec F S4096x8192 .f32 := Host.absf main_arg4
  let main_cst_4 : FVec F S_ .f32 := constant S_ .f32 0x7F800000#32
  let main_v15 : FVec F S4096x8192 .f32 := broadcastInDim S4096x8192 ![] bcast_S_S4096x8192 main_cst_4
  let main_v16 : IVec S4096x8192 1 := cmpf .olt main_v14 main_v15
  fn_part1 (F := F) main_v13 main_v16
-- ==== Kernel.lean ====
abbrev S4096x32 : Shape := ⟨2, ![4096, 32]⟩
abbrev S8192x32 : Shape := ⟨2, ![8192, 32]⟩
abbrev S4096x8192 : Shape := ⟨2, ![4096, 8192]⟩
abbrev S4096 : Shape := ⟨1, ![4096]⟩
abbrev S64x128 : Shape := ⟨2, ![64, 128]⟩
abbrev S512x32 : Shape := ⟨2, ![512, 32]⟩
abbrev S2048x32 : Shape := ⟨2, ![2048, 32]⟩
abbrev S512x2048 : Shape := ⟨2, ![512, 2048]⟩
abbrev S8x128 : Shape := ⟨2, ![8, 128]⟩
abbrev S32x2048 : Shape := ⟨2, ![32, 2048]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩
abbrev S128x32 : Shape := ⟨2, ![128, 32]⟩
abbrev S4096x1 : Shape := ⟨2, ![4096, 1]⟩
abbrev S128 : Shape := ⟨1, ![128]⟩

abbrev nBuf : Space → Nat
  | .hbm => 63
  | .vmem => 12
  | .smem => 0
  | _ => 0

abbrev bufTy : (tb : Table) → Fin (tcTables nBuf tb) → BufTy
  | .hbm, ⟨0, _⟩ => ⟨S4096x32, .f32⟩
  | .hbm, ⟨1, _⟩ => ⟨S8192x32, .f32⟩
  | .hbm, ⟨2, _⟩ => ⟨S4096x8192, .i32⟩
  | .hbm, ⟨3, _⟩ => ⟨S4096x8192, .f32⟩
  | .hbm, ⟨4, _⟩ => ⟨S4096x8192, .f32⟩
  | .hbm, ⟨5, _⟩ => ⟨S4096, .i32⟩
  | .hbm, ⟨6, _⟩ => ⟨S64x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S128x32, .f32⟩
  | .hbm, ⟨11, _⟩ => ⟨S4096x1, .i32⟩
  | .hbm, ⟨12, _⟩ => ⟨S128x32, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S128, .f32⟩
  | .hbm, ⟨17, _⟩ => ⟨S4096x1, .i32⟩
  | .hbm, ⟨18, _⟩ => ⟨S128, .f32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S4096x1, .i32⟩
  | .hbm, ⟨27, _⟩ => ⟨S4096, .f32⟩
  | .hbm, ⟨28, _⟩ => ⟨S_, .i32⟩
  | .hbm, ⟨29, _⟩ => ⟨S4096, .i32⟩
  | .hbm, ⟨30, _⟩ => ⟨S4096, .i1⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S4096, .i32⟩
  | .hbm, ⟨35, _⟩ => ⟨S4096x1, .i32⟩
  | .hbm, ⟨36, _⟩ => ⟨S4096x32, .f32⟩
  | .hbm, ⟨37, _⟩ => ⟨S4096x32, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1, .f32⟩
  | .hbm, ⟨45, _⟩ => ⟨S4096x32, .f32⟩
  | .hbm, ⟨46, _⟩ => ⟨S4096x32, .f32⟩
  | .hbm, ⟨47, _⟩ => ⟨S4096x32, .f32⟩
  | .hbm, ⟨48, _⟩ => ⟨S4096x32, .f32⟩
  | .hbm, ⟨49, _⟩ => ⟨S_, .f32⟩
  | .hbm, ⟨50, _⟩ => ⟨S4096, .f32⟩
  | .hbm, ⟨51, _⟩ => ⟨S4096, .i1⟩
  | .hbm, ⟨52, _⟩ => ⟨S4096x1, .i1⟩
  | .hbm, ⟨53, _⟩ => ⟨S_, .f32⟩
  | .hbm, ⟨54, _⟩ => ⟨S_, .f32⟩
  | .hbm, ⟨55, _⟩ => ⟨S4096x32, .i1⟩
  | .hbm, ⟨56, _⟩ => ⟨S4096x32, .f32⟩
  | .hbm, ⟨57, _⟩ => ⟨S4096x32, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .local _ .vmem, ⟨0, _⟩ => ⟨S512x32, .f32⟩
  | .local _ .vmem, ⟨1, _⟩ => ⟨S512x32, .f32⟩
  | .local _ .vmem, ⟨2, _⟩ => ⟨S2048x32, .f32⟩
  | .local _ .vmem, ⟨3, _⟩ => ⟨S2048x32, .f32⟩
  | .local _ .vmem, ⟨4, _⟩ => ⟨S512x2048, .i32⟩
  | .local _ .vmem, ⟨5, _⟩ => ⟨S512x2048, .i32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S8x128, .f32⟩
  | .local _ .vmem, ⟨11, _⟩ => ⟨S8x128, .f32⟩
  | _, _ => ⟨S4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v36 : Ref sig .tc := ⟨.hbm, 57, rfl⟩
abbrev main_cst_10 : Ref sig .tc := ⟨.hbm, 58, rfl⟩
abbrev main_v37 : Ref sig .tc := ⟨.hbm, 59, rfl⟩
abbrev main_cst_11 : Ref sig .tc := ⟨.hbm, 60, rfl⟩
abbrev main_v38 : Ref sig .tc := ⟨.hbm, 61, rfl⟩
abbrev main_v39 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S8x128_S8x128_0_0 : ∀ a, (![0, 0] : Fin 2 → Nat) a + S8x128.size a ≤ S8x128.size a
  h_S8x128 : 0 < S8x128.numel
  inb_S512x32_S512x32_0_0 : ∀ a, (![0, 0] : Fin 2 → Nat) a + S512x32.size a ≤ S512x32.size a
  h_S512x32 : 0 < S512x32.numel
  bitsLt_bf16_f32 : FTy.bits .bf16 < FTy.bits .f32
  inb_S2048x32_S2048x32_0_0 : ∀ a, (![0, 0] : Fin 2 → Nat) a + S2048x32.size a ≤ S2048x32.size a
  h_S2048x32 : 0 < S2048x32.numel
  transposes_S2048x32_p1_0_S32x2048 : S2048x32.Transposes [1, 0] S32x2048
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  reduces_S512x1_S1 : S512x1.Reduces [0] S1
  shapeCasts_S1_S1x1 : S1.ShapeCasts S1x1
  iota_S8x128_d0_w32 : S8x128.Iotas .tc 32 [0]
  iota_S8x128_d1_w32 : S8x128.Iotas .tc 32 [1]
  inpos_S1x1_p0_0 : ∀ a, (![0, 0] : Fin 2 → Nat) a < S1x1.size a
  shapeCasts_S8x128_S8x128 : S8x128.ShapeCasts S8x128
  reducesTo_S64x128_S_d0_1 : S64x128.ReducesTo [0, 1] S_
  h_S_ : 0 < S_.numel
  bcast_S_S128x32 : S_.BroadcastsInDim S128x32 (![] : Fin 0 → Fin S128x32.rank)
  bcast_S4096_S4096x1_0 : S4096.BroadcastsInDim S4096x1 (![0] : Fin 1 → Fin S4096x1.rank)
  bcast_S_S4096 : S_.BroadcastsInDim S4096 (![] : Fin 0 → Fin S4096.rank)
  bcast_S_S128 : S_.BroadcastsInDim S128 (![] : Fin 0 → Fin S128.rank)
  bcast_S4096x1_S4096x32_0_1 : S4096x1.BroadcastsInDim S4096x32 (![0, 1] : Fin 2 → Fin S4096x32.rank)
  bcast_S_S4096x32 : S_.BroadcastsInDim S4096x32 (![] : Fin 0 → Fin S4096x32.rank)
  reducesTo_S4096x32_S_d0_1 : S4096x32.ReducesTo [0, 1] S_
  dot_S512x32_S32x2048_S512x2048_1_0_0_1_n_n_wf : DotDims.WF S512x32 S32x2048 S512x2048 [1] [0] [0] [1] [] []
  scatter_S128x32_S4096x1_S4096x32_1_0_0_1_wf : ScatterDims.WF S128x32 S4096x1 S4096x32 [1] [0] [0] 1
  scatter_S128_S4096x1_S4096_n_0_0_1_wf : ScatterDims.WF S128 S4096x1 S4096 [] [0] [0] 1
  gather_S128_S4096x1_S4096_n_0_n_n_0_1_1_wf : GatherDims.WF S128 S4096x1 S4096 [] [0] [] [0] [] 1 ![1]
  gather_S128x32_S4096x1_S4096x32_1_0_n_n_0_1_132_wf : GatherDims.WF S128x32 S4096x1 S4096x32 [1] [0] [] [0] [] 1 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x32.size a ≤ S4096x32.size a
  hwx0_0 : ∀ i : grid0.Coords, EltTy.bits .f32 = 32 ∨ (Rect.block (s := S4096x32) S512x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x32.size a ≤ S8192x32.size a
  hwx0_1 : ∀ i : grid0.Coords, EltTy.bits .f32 = 32 ∨ (Rect.block (s := S8192x32) S2048x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x8192.size a
  hwx0_2 : ∀ i : grid0.Coords, EltTy.bits .i32 = 32 ∨ (Rect.block (s := S4096x8192) S512x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S4096x8192.size a
  hwx0_3 : ∀ i : grid0.Coords, EltTy.bits .f32 = 32 ∨ (Rect.block (s := S4096x8192) S512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S4096x8192.size a
  hwx0_4 : ∀ i : grid0.Coords, EltTy.bits .f32 = 32 ∨ (Rect.block (s := S4096x8192) S512x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S64x128.size a
  hwx0_5 : ∀ i : grid0.Coords, EltTy.bits .f32 = 32 ∨ (Rect.block (s := S64x128) S8x128.size (cc0_transform_5 i) (hinb0_5 i)).WholeWords (EltTy.packing .f32)

variable [Facts₀]

def dot_S512x32_S32x2048_S512x2048_1_0_0_1_n_n : DotDims S512x32 S32x2048 S512x2048 where
  lhsContracting := [1]
  rhsContracting := [0]
  lhsNonContracting := [0]
  rhsNonContracting := [1]
  lhsBatch := []
  rhsBatch := []
  wf := dot_S512x32_S32x2048_S512x2048_1_0_0_1_n_n_wf
def scatter_S128x32_S4096x1_S4096x32_1_0_0_1 : ScatterDims S128x32 S4096x1 S4096x32 where
  updateWindowDims := [1]
  insertedWindowDims := [0]
  scatterDimsToOperandDims := [0]
  indexVectorDim := 1
  wf := scatter_S128x32_S4096x1_S4096x32_1_0_0_1_wf
def scatter_S128_S4096x1_S4096_n_0_0_1 : ScatterDims S128 S4096x1 S4096 where
  updateWindowDims := []
  insertedWindowDims := [0]
  scatterDimsToOperandDims := [0]
  indexVectorDim := 1
  wf := scatter_S128_S4096x1_S4096_n_0_0_1_wf
def gather_S128_S4096x1_S4096_n_0_n_n_0_1_1 : GatherDims S128 S4096x1 S4096 where
  offsetDims := []
  collapsedSliceDims := [0]
  operandBatchingDims := []
  startIndicesBatchingDims := []
  startIndexMap := [0]
  indexVectorDim := 1
  sliceSizes := ![1]
  wf := gather_S128_S4096x1_S4096_n_0_n_n_0_1_1_wf
def gather_S128x32_S4096x1_S4096x32_1_0_n_n_0_1_132 : GatherDims S128x32 S4096x1 S4096x32 where
  offsetDims := [1]
  collapsedSliceDims := [0]
  operandBatchingDims := []
  startIndicesBatchingDims := []
  startIndexMap := [0]
  indexVectorDim := 1
  sliceSizes := ![1, 32]
  wf := gather_S128x32_S4096x1_S4096x32_1_0_n_n_0_1_132_wf

abbrev win0_0 : Pipeline.Window sig grid0 :=
  Pipeline.Window.ofSpec (Memref.whole main_arg0) S512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x32 : Shape := ⟨2, ![4096, 32]⟩
abbrev S8192x32 : Shape := ⟨2, ![8192, 32]⟩
abbrev S4096x8192 : Shape := ⟨2, ![4096, 8192]⟩
abbrev S4096 : Shape := ⟨1, ![4096]⟩
abbrev S32x8192 : Shape := ⟨2, ![32, 8192]⟩
abbrev S_ : Shape := ⟨0, ![]⟩
abbrev S128x32 : Shape := ⟨2, ![128, 32]⟩
abbrev S4096x1 : Shape := ⟨2, ![4096, 1]⟩
abbrev S128 : Shape := ⟨1, ![128]⟩

abbrev nBuf : Space → Nat
  | .hbm => 69
  | .vmem => 0
  | .smem => 0
  | _ => 0

abbrev bufTy : (tb : Table) → Fin (tcTables nBuf tb) → BufTy
  | .hbm, ⟨0, _⟩ => ⟨S4096x32, .f32⟩
  | .hbm, ⟨1, _⟩ => ⟨S8192x32, .f32⟩
  | .hbm, ⟨2, _⟩ => ⟨S4096x8192, .i32⟩
  | .hbm, ⟨3, _⟩ => ⟨S4096x8192, .f32⟩
  | .hbm, ⟨4, _⟩ => ⟨S4096x8192, .f32⟩
  | .hbm, ⟨5, _⟩ => ⟨S4096, .i32⟩
  | .hbm, ⟨6, _⟩ => ⟨S32x8192, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S128x32, .f32⟩
  | .hbm, ⟨17, _⟩ => ⟨S4096x1, .i32⟩
  | .hbm, ⟨18, _⟩ => ⟨S128x32, .f32⟩
  | .hbm, ⟨19, _⟩ => ⟨S_, .f32⟩
  | .hbm, ⟨20, _⟩ => ⟨S4096, .f32⟩
  | .hbm, ⟨21, _⟩ => ⟨S_, .f32⟩
  | .hbm, ⟨22, _⟩ => ⟨S128, .f32⟩
  | .hbm, ⟨23, _⟩ => ⟨S4096x1, .i32⟩
  | .hbm, ⟨24, _⟩ => ⟨S128, .f32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S4096x1, .i32⟩
  | .hbm, ⟨33, _⟩ => ⟨S4096, .f32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S4096x1, .i32⟩
  | .hbm, ⟨42, _⟩ => ⟨S4096x32, .f32⟩
  | .hbm, ⟨43, _⟩ => ⟨S4096x32, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x1, .f32⟩
  | .hbm, ⟨51, _⟩ => ⟨S4096x32, .f32⟩
  | .hbm, ⟨52, _⟩ => ⟨S4096x32, .f32⟩
  | .hbm, ⟨53, _⟩ => ⟨S4096x32, .f32⟩
  | .hbm, ⟨54, _⟩ => ⟨S4096x32, .f32⟩
  | .hbm, ⟨55, _⟩ => ⟨S_, .f32⟩
  | .hbm, ⟨56, _⟩ => ⟨S4096, .f32⟩
  | .hbm, ⟨57, _⟩ => ⟨S4096, .i1⟩
  | .hbm, ⟨58, _⟩ => ⟨S4096x1, .i1⟩
  | .hbm, ⟨59, _⟩ => ⟨S_, .f32⟩
  | .hbm, ⟨60, _⟩ => ⟨S_, .f32⟩
  | .hbm, ⟨61, _⟩ => ⟨S4096x32, .i1⟩
  | .hbm, ⟨62, _⟩ => ⟨S4096x32, .f32⟩
  | .hbm, ⟨63, _⟩ => ⟨S4096x32, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_cst_11 : Ref sig .tc := ⟨.hbm, 66, rfl⟩
abbrev main_v44 : Ref sig .tc := ⟨.hbm, 67, rfl⟩
abbrev main_v45 : Ref sig .tc := ⟨.hbm, 68, rfl⟩

abbrev nD : Nat := 1
abbrev τ : Topo := Topo.v7x

variable {F : FTy → Type} [FloatOps F]

class Facts₀ : Prop where
  transposes_S8192x32_S32x8192_1_0 : S8192x32.Transposes [1, 0] S32x8192
  reducesTo_S4096x8192_S_d0_1 : S4096x8192.ReducesTo [0, 1] S_
  h_S_ : 0 < S_.numel
  bcast_S_S128x32 : S_.BroadcastsInDim S128x32 (![] : Fin 0 → Fin S128x32.rank)
  bcast_S4096_S4096x1_0 : S4096.BroadcastsInDim S4096x1 (![0] : Fin 1 → Fin S4096x1.rank)
  bcast_S_S4096 : S_.BroadcastsInDim S4096 (![] : Fin 0 → Fin S4096.rank)
  bcast_S_S128 : S_.BroadcastsInDim S128 (![] : Fin 0 → Fin S128.rank)
  bcast_S4096x1_S4096x32_0_1 : S4096x1.BroadcastsInDim S4096x32 (![0, 1] : Fin 2 → Fin S4096x32.rank)
  bcast_S_S4096x32 : S_.BroadcastsInDim S4096x32 (![] : Fin 0 → Fin S4096x32.rank)
  reducesTo_S4096x32_S_d0_1 : S4096x32.ReducesTo [0, 1] S_
  dot_S4096x32_S32x8192_S4096x8192_1_0_0_1_n_n_wf : DotDims.WF S4096x32 S32x8192 S4096x8192 [1] [0] [0] [1] [] []
  scatter_S128x32_S4096x1_S4096x32_1_0_0_1_wf : ScatterDims.WF S128x32 S4096x1 S4096x32 [1] [0] [0] 1
  scatter_S128_S4096x1_S4096_n_0_0_1_wf : ScatterDims.WF S128 S4096x1 S4096 [] [0] [0] 1
  gather_S128_S4096x1_S4096_n_0_n_n_0_1_1_wf : GatherDims.WF S128 S4096x1 S4096 [] [0] [] [0] [] 1 ![1]
  gather_S128x32_S4096x1_S4096x32_1_0_n_n_0_1_132_wf : GatherDims.WF S128x32 S4096x1 S4096x32 [1] [0] [] [0] [] 1 ![1, 32]

variable [Facts₀]

def dot_S4096x32_S32x8192_S4096x8192_1_0_0_1_n_n : DotDims S4096x32 S32x8192 S4096x8192 where
  lhsContracting := [1]
  rhsContracting := [0]
  lhsNonContracting := [0]
  rhsNonContracting := [1]
  lhsBatch := []
  rhsBatch := []
  wf := dot_S4096x32_S32x8192_S4096x8192_1_0_0_1_n_n_wf
def scatter_S128x32_S4096x1_S4096x32_1_0_0_1 : ScatterDims S128x32 S4096x1 S4096x32 where
  updateWindowDims := [1]
  insertedWindowDims := [0]
  scatterDimsToOperandDims := [0]
  indexVectorDim := 1
  wf := scatter_S128x32_S4096x1_S4096x32_1_0_0_1_wf
def scatter_S128_S4096x1_S4096_n_0_0_1 : ScatterDims S128 S4096x1 S4096 where
  updateWindowDims := []
  insertedWindowDims := [0]
  scatterDimsToOperandDims := [0]
  indexVectorDim := 1
  wf := scatter_S128_S4096x1_S4096_n_0_0_1_wf
def gather_S128_S4096x1_S4096_n_0_n_n_0_1_1 : GatherDims S128 S4096x1 S4096 where
  offsetDims := []
  collapsedSliceDims := [0]
  operandBatchingDims := []
  startIndicesBatchingDims := []
  startIndexMap := [0]
  indexVectorDim := 1
  sliceSizes := ![1]
  wf := gather_S128_S4096x1_S4096_n_0_n_n_0_1_1_wf
def gather_S128x32_S4096x1_S4096x32_1_0_n_n_0_1_132 : GatherDims S128x32 S4096x1 S4096x32 where
  offsetDims := [1]
  collapsedSliceDims := [0]
  operandBatchingDims := []
  startIndicesBatchingDims := []
  startIndexMap := [0]
  indexVectorDim := 1
  sliceSizes := ![1, 32]
  wf := gather_S128x32_S4096x1_S4096x32_1_0_n_n_0_1_132_wf

class Facts : Prop extends Facts₀ where

variable [Facts]
-- ==== Proof.Spec.lean ====
/-
  The loss both programs compute, as mathematics on the extended reals.

  For a user row `a` and an item row `b` the residual is the inner product of the two embedding rows, times the
  training mask's entry read as a signed integer, minus the observed value; the entry of the loss is the weight
  times the residual squared. The matrix-factorisation loss is the sum of the entries over every user and item.
  The functions are stated over arbitrary finite index types so that one definition serves a block of rows and
  columns and the whole arrays alike: a block is the restriction of the arrays along two index maps.
-/
import Idealize.ShloMosaic.PureOps.Ideal
import Idealize.ShloMosaic.Lib.ValueIdx

noncomputable section

namespace Cert.Spec

open scoped BigOperators

variable {ι κ γ : Type} [Fintype ι] [Fintype κ] [Fintype γ]

/-- The residual at (a, b): ⟨U a, V b⟩ · mask(a, b) − observed(a, b). -/
def resid (U : ι → γ → EReal) (V : κ → γ → EReal) (M : ι → κ → BitVec 32) (Q : ι → κ → EReal) (a : ι) (b : κ) : EReal :=
  (∑ k : γ, U a k * V b k) * (((M a b).toInt : ℝ) : EReal) - Q a b

/-- One entry of the loss: weight · residual². -/
def entry (U : ι → γ → EReal) (V : κ → γ → EReal) (M : ι → κ → BitVec 32) (Q W : ι → κ → EReal) (a : ι) (b : κ) : EReal :=
  W a b * (resid U V M Q a b * resid U V M Q a b)

/-- The loss over all rows and columns of the index types. -/
def loss (U : ι → γ → EReal) (V : κ → γ → EReal) (M : ι → κ → BitVec 32) (Q W : ι → κ → EReal) : EReal :=
  ∑ a : ι, ∑ b : κ, entry U V M Q W a b

/-- An entry of the arrays restricted along two index maps is the arrays' entry at the images. -/
theorem entry_restrict {ι' κ' : Type} (r : ι' → ι) (s : κ' → κ)
    (U : ι → γ → EReal) (V : κ → γ → EReal) (M : ι → κ → BitVec 32) (Q W : ι → κ → EReal) (p : ι') (q : κ') :
    entry (fun p k => U (r p) k) (fun q k => V (s q) k) (fun p q => M (r p) (s q)) (fun p q => Q (r p) (s q))
      (fun p q => W (r p) (s q)) p q = entry U V M Q W (r p) (s q) := rfl

/-! ## Tiles

The kernel visits the 4096 × 8192 entries in 8 × 4 tiles of 512 rows and 2048 columns: tile (i, j) holds the rows
`512·i + p` and the columns `2048·j + q`. -/

/-- Row `p` of row tile `i`. -/
def row (i : Fin 8) (p : Fin 512) : Fin 4096 := ⟨i.val * 512 + p.val, by have := i.isLt; have := p.isLt; omega⟩

/-- Column `q` of column tile `j`. -/
def col (j : Fin 4) (q : Fin 2048) : Fin 8192 := ⟨j.val * 2048 + q.val, by have := j.isLt; have := q.isLt; omega⟩

@[simp] theorem row_val (i : Fin 8) (p : Fin 512) : (row i p).val = i.val * 512 + p.val := rfl
@[simp] theorem col_val (j : Fin 4) (q : Fin 2048) : (col j q).val = j.val * 2048 + q.val := rfl

end Cert.Spec

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.RefLoss.lean ====
/-
  The reference program's main loss read at the ideal values.

  The reference forms D = (U · Vᵀ) ∘ mask − Q over all 4096 × 8192 entries and reduces W ∘ D ∘ D over both axes from
  zero. At the ideal values every elementwise operation is the operation on extended reals, the matrix product at
  (a, b) is the sum over the 32 embedding coordinates of U (a, k) · V (b, k) (the transposed right operand at (k, b)
  is V at (b, k)), the mask's entry is its signed integer value, and the reduction over both axes is the total sum
  from the initial value 0. So the result's one element is the loss of the shared specification.
-/
import proofs.«143419_j71854802862666_2_alg».proof.Proof.Gen.ReferenceIdeal
import proofs.«143419_j71854802862666_2_alg».proof.Proof.Spec
import proofs.«143419_j71854802862666_2_alg».proof.Proof.LibDot
import Idealize.ShloMosaic.PureOps.Ideal.Laws
import Idealize.ShloMosaic.Lib.ValueIdx
import Idealize.ShloMosaic.Lib.ValueLayout
import Idealize.ShloMosaic.Lib.Pipeline.Value
noncomputable section
namespace Cert.ReferenceIdeal.RefLoss
open Cert.ReferenceIdeal Cert.ReferenceIdeal.Gen Idealize.ShloMosaic Idealize.ShloMosaic.ValueIdx
open scoped BigOperators

/-- The product of U with the transposed V at (a, b): the inner product of row a of U and row b of V. -/
theorem dot_apply (U : FVec Ideal S4096x32 .f32) (V : FVec Ideal S8192x32 .f32) (a : Fin 4096) (b : Fin 8192) :
    Host.dotGeneral dot_S4096x32_S32x8192_S4096x8192_1_0_0_1_n_n none U
        (transpose S32x8192 [1, 0] V transposes_S8192x32_S32x8192_1_0) (ix2 a b)
      = ∑ k : Fin 32, U (ix2 a k) * V (ix2 b k) := by
  refine (Cert.LibDot.dotGeneral_apply (m := 4096) (k := 32) (n := 8192)
    dot_S4096x32_S32x8192_S4096x8192_1_0_0_1_n_n_wf none U _ a b).trans ?_
  refine Finset.sum_congr rfl fun k _ => ?_
  rw [transpose_ix2_apply]

/-- The residual array at (a, b). -/
theorem resid_apply (U : FVec Ideal S4096x32 .f32) (V : FVec Ideal S8192x32 .f32) (M : IVec S4096x8192 32)
    (Q : FVec Ideal S4096x8192 .f32) (a : Fin 4096) (b : Fin 8192) :
    subf (mulf (Host.dotGeneral dot_S4096x32_S32x8192_S4096x8192_1_0_0_1_n_n none U
        (transpose S32x8192 [1, 0] V transposes_S8192x32_S32x8192_1_0)) (sitofp .f32 M)) Q (ix2 a b)
      = Cert.Spec.resid (fun a k => U (ix2 a k)) (fun b k => V (ix2 b k)) (fun a b => M (ix2 a b))
          (fun a b => Q (ix2 a b)) a b := by
  rw [subf_apply, mulf_apply, dot_apply, sitofp_apply]
  rfl

theorem mainLoss_eq (U : FVec Ideal S4096x32 .f32) (V : FVec Ideal S8192x32 .f32) (M : IVec S4096x8192 32) (Q W : FVec Ideal S4096x8192 .f32) :
    Host.reduceAdd (F := Ideal)
      (mulf W (mulf
        (subf (mulf (Host.dotGeneral dot_S4096x32_S32x8192_S4096x8192_1_0_0_1_n_n none U (transpose S32x8192 [1, 0] V transposes_S8192x32_S32x8192_1_0)) (sitofp .f32 M)) Q)
        (subf (mulf (Host.dotGeneral dot_S4096x32_S32x8192_S4096x8192_1_0_0_1_n_n none U (transpose S32x8192 [1, 0] V transposes_S8192x32_S32x8192_1_0)) (sitofp .f32 M)) Q)))
      (constant S_ .f32 0x00000000#32) reducesTo_S4096x8192_S_d0_1 h_S_
    = fun _ => Cert.Spec.loss (fun a k => U (ix2 a k)) (fun b k => V (ix2 b k)) (fun a b => M (ix2 a b)) (fun a b => Q (ix2 a b)) (fun a b => W (ix2 a b)) := by
  funext j
  refine (Ideal.hostReduceAdd_total reducesTo_S4096x8192_S_d0_1 (fun b => b.elim0) _ _ j).trans ?_
  rw [constant_apply, Ideal.ofBits_zero_f32, zero_add, sum_idx2]
  unfold Cert.Spec.loss
  refine Finset.sum_congr rfl fun a _ => Finset.sum_congr rfl fun b _ => ?_
  rw [mulf_apply, mulf_apply, resid_apply]
  rfl

end Cert.ReferenceIdeal.RefLoss

end
-- ==== Proof.Tail.lean ====
/-
  The part of the result both programs compute by the same host operations after their main loss: one tenth of the
  region loss. Per user, the leave-one-out mean of the other users of its region (a scatter-add of the embeddings
  and of ones by region, gathered back by region), the absolute deviation of the user's embedding from it where
  the region has more than one user, summed over all users and coordinates. It is kept as ONE term of the two
  arrays it reads — the user embeddings `x` and the region indices `r` — and never opened: the two programs agree on
  it operation by operation.

  Then the kernel program's result: the lines after the pallas_call sum its result array from zero and add that
  term, computed from the argument arrays as the region left them.
-/
import proofs.«143419_j71854802862666_2_alg».proof.Proof.Gen.KernelIdeal.Frame
import Idealize.ShloMosaic.PureOps.Ideal.Laws
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo
open Idealize.ShloMosaic.Pipeline (Dat)

namespace Cert.KernelIdeal.Tail

open Cert.KernelIdeal Cert.KernelIdeal.Gen

/-- One tenth of the region loss of the user embeddings `x` under the region indices `r`, as the host computes it. -/
def regionTerm (x : FVec Ideal S4096x32 .f32) (r : IVec S4096 32) : FVec Ideal S_ .f32 :=
  mulf (constant S_ .f32 0x3DCCCCCD#32) (Host.reduceAdd (select (broadcastInDim S4096x32 ![0, 1] bcast_S4096x1_S4096x32_0_1 (broadcastInDim S4096x1 ![0] bcast_S4096_S4096x1_0 (cmpf (F := Ideal) .ogt (Host.gather gather_S128_S4096x1_S4096_n_0_n_n_0_1_1 (Host.scatterAdd scatter_S128_S4096x1_S4096_n_0_0_1 (broadcastInDim S128 ![] bcast_S_S128 (constant S_ .f32 0x00000000#32)) (broadcastInDim S4096x1 ![0] bcast_S4096_S4096x1_0 r) (broadcastInDim S4096 ![] bcast_S_S4096 (constant S_ .f32 0x3F800000#32))) (broadcastInDim S4096x1 ![0] bcast_S4096_S4096x1_0 (select (cmpi .slt r (broadcastInDim S4096 ![] bcast_S_S4096 (constantI S_ 32 0#32))) (addi r (broadcastInDim S4096 ![] bcast_S_S4096 (constantI S_ 32 128#32))) r))) (broadcastInDim S4096 ![] bcast_S_S4096 (constant S_ .f32 0x3F800000#32))))) (Host.absf (subf x (Host.divf (subf (Host.gather gather_S128x32_S4096x1_S4096x32_1_0_n_n_0_1_132 (Host.scatterAdd scatter_S128x32_S4096x1_S4096x32_1_0_0_1 (broadcastInDim S128x32 ![] bcast_S_S128x32 (constant S_ .f32 0x00000000#32)) (broadcastInDim S4096x1 ![0] bcast_S4096_S4096x1_0 r) x) (broadcastInDim S4096x1 ![0] bcast_S4096_S4096x1_0 (select (cmpi .slt r (broadcastInDim S4096 ![] bcast_S_S4096 (constantI S_ 32 0#32))) (addi r (broadcastInDim S4096 ![] bcast_S_S4096 (constantI S_ 32 128#32))) r))) x) (broadcastInDim S4096x32 ![0, 1] bcast_S4096x1_S4096x32_0_1 (broadcastInDim S4096x1 ![0] bcast_S4096_S4096x1_0 (maximumf (subf (Host.gather gather_S128_S4096x1_S4096_n_0_n_n_0_1_1 (Host.scatterAdd scatter_S128_S4096x1_S4096_n_0_0_1 (broadcastInDim S128 ![] bcast_S_S128 (constant S_ .f32 0x00000000#32)) (broadcastInDim S4096x1 ![0] bcast_S4096_S4096x1_0 r) (broadcastInDim S4096 ![] bcast_S_S4096 (constant S_ .f32 0x3F800000#32))) (broadcastInDim S4096x1 ![0] bcast_S4096_S4096x1_0 (select (cmpi .slt r (broadcastInDim S4096 ![] bcast_S_S4096 (constantI S_ 32 0#32))) (addi r (broadcastInDim S4096 ![] bcast_S_S4096 (constantI S_ 32 128#32))) r))) (broadcastInDim S4096 ![] bcast_S_S4096 (constant S_ .f32 0x3F800000#32))) (broadcastInDim S4096 ![] bcast_S_S4096 (constant S_ .f32 0x3F800000#32)))))))) (broadcastInDim S4096x32 ![] bcast_S_S4096x32 (id (constant S_ .f32 0x00000000#32)))) (constant S_ .f32 0x00000000#32) reducesTo_S4096x32_S_d0_1 h_S_)

variable (m : (ℓ : Loc nD τ sig) → Buf (Elt Ideal) ℓ)

/-- A buffer's contents when the lines after the region start: the pipeline's arrays as the region left them, every
    other buffer as the region found it. -/
abbrev atExit (c : Dev nD) (b : Ref sig .tc) : (Proc.devRef (τ := τ) .tc b).ty.Contents (Elt Ideal) :=
  Pipeline.withArrays (cfgs 0).spec c (V0 m c) (fun w => (dats m 0 c).arrAt w (cfgs 0).N) (Proc.devRef .tc b)

set_option maxHeartbeats 4000000 in
/-- The program's result after the lines that follow the region: the sum from zero of the region's result array plus
    the region term of the user embeddings and region indices. -/
theorem tail_eq (c : Dev nD) :
    Pipeline.afterTail₀ cfgs (dats m) 0 (V0 m) [hostOps1, hostOps1_1, hostOps1_2] c main_v39
      = addf (Host.reduceAdd (F := Ideal) (atExit m c main_v0) (constant S_ .f32 0x00000000#32) reducesTo_S64x128_S_d0_1 h_S_)
          (regionTerm (atExit m c main_arg0) (atExit m c main_arg5)) := by
  unfold Pipeline.afterTail₀
  simp only [hostOps1, hostOps1_1, hostOps1_2, List.flatten_cons, List.flatten_nil, List.append_nil, List.cons_append, List.nil_append]
  after_results_simp
  rfl

end Cert.KernelIdeal.Tail

end
-- ==== Proof.Pieces.lean ====
/-
  What each control case of the kernel body leaves in the output block's staging buffer, as a value.

  The body ends with one store of the whole 8 × 128 block; when the column-tile coordinate is 0 it first stores
  the zero block and reads it back. So, whatever the memrefs, the block ends at the body's arithmetic
  (`k0_pay2`) of the five loaded input blocks and of the previous contents: the zero block in the resetting
  case, the running contents otherwise.
-/
import proofs.«143419_j71854802862666_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The offsets of a load or store of a whole buffer. -/
theorem hz : (![0, 0] : Fin 2 → Nat) = fun _ => 0 := funext fun a => by fin_cases a <;> rfl

/-- Away from the first column tile: the body's arithmetic over the running contents `xo5`. -/
theorem out_B (c : Dev nD) (i : grid0.Coords) (arg2 : Memref sig .tc .vmem S512x32 .f32) (harg2 : arg2.IsWhole) (arg3 : Memref sig .tc .vmem S2048x32 .f32) (harg3 : arg3.IsWhole) (arg4 : Memref sig .tc .vmem S512x2048 .i32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S8x128 .f32) (harg7 : arg7.IsWhole) (hc0 : ¬cond0_0 i) (x0 : Vec F S512x32 .f32) (x1 : Vec F S2048x32 .f32) (x2 : Vec F S512x2048 .i32) (x3 : Vec F S512x2048 .f32) (x4 : Vec F S512x2048 .f32) (xo5 : Vec F S8x128 .f32) :
    out0_B_5 c i arg2 harg2 arg3 harg3 arg4 harg4 arg5 harg5 arg6 harg6 arg7 harg7 hc0 x0 x1 x2 x3 x4 xo5 = k0_pay2 x0 x1 x4 x2 x3 xo5 := by
  unfold out0_B_5
  rw [View.read_writes_eq_canon _ _ _ (cover0_B_5 c i arg2 harg2 arg3 harg3 arg4 harg4 arg5 harg5 arg6 harg6 arg7 harg7 hc0 x0 x1 x2 x3 x4 xo5)]
  unfold kernelRun0_B
  dsimp only
  sl_unfold_words
  rw [View.canon_unit_zero hz]
  simp only [View.readAt_eq_ld, harg2.read_unread, harg3.read_unread, harg4.read_unread, harg5.read_unread, harg6.read_unread, harg7.read_unread,
    View.ld_unit_zero (S := S512x32) hz, View.ld_unit_zero (S := S2048x32) hz, View.ld_unit_zero (S := S512x2048) hz, View.ld_unit_zero (S := S8x128) hz]

/-- At the first column tile: the same arithmetic over the zero block just stored. -/
theorem out_A (c : Dev nD) (i : grid0.Coords) (arg2 : Memref sig .tc .vmem S512x32 .f32) (harg2 : arg2.IsWhole) (arg3 : Memref sig .tc .vmem S2048x32 .f32) (harg3 : arg3.IsWhole) (arg4 : Memref sig .tc .vmem S512x2048 .i32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S8x128 .f32) (harg7 : arg7.IsWhole) (hc0 : cond0_0 i) (x0 : Vec F S512x32 .f32) (x1 : Vec F S2048x32 .f32) (x2 : Vec F S512x2048 .i32) (x3 : Vec F S512x2048 .f32) (x4 : Vec F S512x2048 .f32) :
    out0_A_5 c i arg2 harg2 arg3 harg3 arg4 harg4 arg5 harg5 arg6 harg6 arg7 harg7 hc0 x0 x1 x2 x3 x4 = k0_pay2 x0 x1 x4 x2 x3 (k0_pay1 (F := F)) := by
  unfold out0_A_5
  rw [View.read_writes_eq_canon _ _ _ (cover0_A_5 c i arg2 harg2 arg3 harg3 arg4 harg4 arg5 harg5 arg6 harg6 arg7 harg7 hc0 x0 x1 x2 x3 x4)]
  unfold kernelRun0_A
  dsimp only
  sl_unfold_words
  rw [View.canon_cons_unit_zero (S := S8x128) hz, View.readCov_unit_zero (S := S8x128) _ hz]
  simp only [View.readAt_eq_ld, harg2.read_unread, harg3.read_unread, harg4.read_unread, harg5.read_unread, harg6.read_unread,
    View.ld_unit_zero (S := S512x32) hz, View.ld_unit_zero (S := S2048x32) hz, View.ld_unit_zero (S := S512x2048) hz, View.ld_unit_zero (S := S8x128) hz]

end Cert.KernelIdeal.Pieces

end
-- ==== Proof.LibRowReduce.lean ====
/-
  Reductions along the rows of a matrix, at the ideal values: a reduction over axis 1 of an a × b array, read
  at row p. A maximum that starts from negative infinity is the supremum of the row's entries (the order of
  folding does not matter and the start is the least element); a sum that starts from zero is the sum of the
  row's entries. For any extents.
-/
import Idealize.ShloMosaic.PureOps.Ideal.Laws
import Idealize.ShloMosaic.Lib.ValueIdx

noncomputable section

namespace Cert.LibRowReduce

open Idealize.ShloMosaic Idealize.ShloMosaic.ValueIdx
open scoped BigOperators

/-- The f32 word of negative infinity denotes the least extended real. -/
theorem ofBits_neg_inf : Ideal.ofBits .f32 0xFF800000#32 = (⊥ : EReal) := by simp [Ideal.ofBits, Ideal.ieee]

/-- The coordinate inserted on axis 1 of a row index. -/
theorem lift_row {a b : Nat} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

/-- The maximum of each row from negative infinity, at row p: the supremum over the columns. -/
theorem rowMax_apply {a b : Nat} (y : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (p : Fin a) :
    multiReduction .maximumf [1] ⟨1, ![a]⟩ y 0xFF800000#32 h hφ hacc (ix1 p)
      = (Finset.univ : Finset (Fin b)).sup fun k => y (ix2 p k) := by
  refine (Ideal.multiReduction_maximumf_single y _ h hφ hacc (ix1 p)).trans ?_
  rw [show FloatOps.ofBits (F := Ideal) .f32 0xFF800000#32 = (⊥ : EReal) from ofBits_neg_inf]
  exact Finset.sup_congr rfl fun k _ => congrArg y (lift_row h p k)

/-- The sum of each row from zero, at row p: the sum over the columns. -/
theorem rowSum_apply {a b : Nat} (y : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ y 0x00000000#32 h hφ hacc (ix1 p)
      = ∑ k : Fin b, y (ix2 p k) := by
  refine (Ideal.multiReduction_add_single y _ h hφ hacc (ix1 p)).trans ?_
  exact Finset.sum_congr rfl fun k _ => congrArg y (lift_row h p k)

end Cert.LibRowReduce
-- ==== Proof.LibColSum.lean ====
/-
  Sums down the columns of a matrix, at the ideal values: a reduction by addition over axis 0 of an a × b array, from
  zero, read at column j, is the sum over the rows of the entries (k, j); and the same sum kept as a one-row matrix,
  read at (0, j). For any extents. (The companion of a row reduction, for kernels that keep the reduced axis on the
  sublanes: features down the rows, pixels along the columns.)
-/
import Idealize.ShloMosaic.PureOps.Ideal.Laws
import Idealize.ShloMosaic.Lib.ValueIdx
import Idealize.ShloMosaic.Lib.ValueLayout

noncomputable section

namespace Cert.LibColSum

open Idealize.ShloMosaic Idealize.ShloMosaic.ValueIdx
open scoped BigOperators

/-! ## Sums down the columns of a matrix -/

/-- The coordinate inserted on axis 0 of a column index. -/
theorem lift_col {a b : Nat} (h : (⟨2, ![a, b]⟩ : Shape).Reduces [0] ⟨1, ![b]⟩) (j : Fin b) (k : Fin a) :
    h.lift (ix1 j) k = ix2 k j := by
  funext c; apply Fin.ext
  match c with
  | ⟨0, _⟩ => rfl
  | ⟨1, _⟩ => rfl

/-- The sum of each column from zero, at column j: the sum over the rows. -/
theorem colSum_apply {a b : Nat} (y : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ y 0x00000000#32 h hφ hacc (ix1 j) = ∑ k : Fin a, y (ix2 k j) := by
  refine (Ideal.multiReduction_add_single y _ h hφ hacc (ix1 j)).trans ?_
  exact Finset.sum_congr rfl fun k _ => congrArg y (lift_col h j k)

/-- A column sum kept as a one-row matrix, at (0, j). -/
theorem colSumRow_apply {a b : Nat} (y : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ)
    (hc : (⟨1, ![b]⟩ : Shape).ShapeCasts ⟨2, ![1, b]⟩) (u : Fin 1) (j : Fin b) :
    shapeCast ⟨2, ![1, b]⟩ (multiReduction .add [0] ⟨1, ![b]⟩ y 0x00000000#32 h hφ hacc) hc (ix2 u j)
      = ∑ k : Fin a, y (ix2 k j) :=
  (shapeCast_a_1a_apply _ hc u j).trans (colSum_apply y h hφ hacc j)

end Cert.LibColSum

end
-- ==== Proof.LibKeepdims.lean ====
/-
  A reduction over the last axis that keeps its dimension: the vector of row results, length a, is viewed as a
  column [a, 1] and the column is then spread over b columns, [a, 1] to [a, b]. Read at (p, c) the result is the
  row result of row p, whatever the column c. Stated for any element type and any extents.
-/
import Idealize.ShloMosaic.Lib.ValueLayout

namespace Idealize.ShloMosaic.ValueIdx

open Idealize.ShloMosaic

variable {α : Type}

/-- An `[a]` array cast to a column `[a, 1]` reads, at `(i, u)`, the operand at `i`, whatever the unit coordinate `u`:
    the row-major position of `(i, u)` in a one-column array is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a length-`a` vector as a column spread over `b` columns reads, at `(p, c)`, entry `p`. -/
theorem broadcastTo_shapeCast_column_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Idealize.ShloMosaic.ValueIdx
-- ==== Proof.BlockValue.lean ====
/-
  What the kernel body's arithmetic computes, read at an index, at the ideal values.

  The body forms the 512 × 2048 product of the user block with the transposed item block (a narrowing format change is
  the identity on the extended reals, a transpose swaps the two coordinates, and the matrix unit's product into a zero
  accumulator is the sum over the contracted coordinate), multiplies by the mask read as a signed integer, subtracts the
  observed block, squares, and multiplies by the weight: entry (p, q) is the weighted squared residual. Summing along
  each row, then down the column of row sums, gives the sum over all entries, which is the loss of the tile. That scalar
  is placed at the origin of the 8 × 128 block — "row number is 0 and column number is 0", zero elsewhere — and added to
  the block's previous contents. The reset value is the zero block.
-/
import proofs.«143419_j71854802862666_2_alg».proof.Proof.Gen.KernelIdeal.Skeleton
import proofs.«143419_j71854802862666_2_alg».proof.Proof.Spec
import proofs.«143419_j71854802862666_2_alg».proof.Proof.LibDot
import proofs.«143419_j71854802862666_2_alg».proof.Proof.LibRowReduce
import proofs.«143419_j71854802862666_2_alg».proof.Proof.LibColSum
import proofs.«143419_j71854802862666_2_alg».proof.Proof.LibKeepdims
import Idealize.ShloMosaic.PureOps.Ideal.Laws
import Idealize.ShloMosaic.Lib.ValueIdx
import Idealize.ShloMosaic.Lib.ValueLayout
import Idealize.ShloMosaic.Lib.Pipeline.Value
noncomputable section
namespace Cert.KernelIdeal.BlockValue
open Cert.KernelIdeal Cert.KernelIdeal.Gen Idealize.ShloMosaic Idealize.ShloMosaic.ValueIdx
open scoped BigOperators

/-- the loss of one 512 × 2048 tile, from the five blocks the body loads -/
def tileLoss (xu : Vec Ideal S512x32 .f32) (xv : Vec Ideal S2048x32 .f32) (xm : Vec Ideal S512x2048 .i32) (xq xw : Vec Ideal S512x2048 .f32) : EReal :=
  Cert.Spec.loss (fun p k => xu (ix2 p k)) (fun q k => xv (ix2 q k)) (fun p q => xm (ix2 p q)) (fun p q => xq (ix2 p q)) (fun p q => xw (ix2 p q))

theorem pay1_apply (r : Fin 8) (c : Fin 128) : k0_pay1 (F := Ideal) (ix2 r c) = 0 := by
  show Ideal.ofBits .f32 0x00000000#32 = 0
  exact Ideal.ofBits_zero_f32

/-- the matrix product of the user block with the transposed item block, at (p, q): the inner product of the rows -/
theorem dot_apply (xu : Vec Ideal S512x32 .f32) (xv : Vec Ideal S2048x32 .f32) (p : Fin 512) (q : Fin 2048) :
    matmul dot_S512x32_S32x2048_S512x2048_1_0_0_1_n_n none
      (truncf .bf16 xu bitsLt_bf16_f32 : FVec Ideal S512x32 .bf16)
      (transpose S32x2048 [1, 0] (truncf .bf16 xv bitsLt_bf16_f32 : FVec Ideal S2048x32 .bf16) transposes_S2048x32_p1_0_S32x2048)
      (constant S512x2048 .f32 0x00000000#32) (ix2 p q)
    = ∑ k : Fin 32, xu (ix2 p k) * xv (ix2 q k) := by
  refine (Cert.LibDot.matmul_zero_apply dot_S512x32_S32x2048_S512x2048_1_0_0_1_n_n_wf none _ _ p q).trans ?_
  refine Finset.sum_congr rfl fun k _ => ?_
  refine congrArg (fun z => xu (ix2 p k) * z) ?_
  refine (transpose_apply _ _ transposes_S2048x32_p1_0_S32x2048 (ix2 k q) (ix2 q k) fun b => ?_).trans rfl
  match b with
  | ⟨0, _⟩ => rfl
  | ⟨1, _⟩ => rfl

/-- the weighted squared residual at (p, q), from the product block and the loaded blocks -/
theorem entry_apply (D : FVec Ideal S512x2048 .f32) (xw : Vec Ideal S512x2048 .f32) (xm : Vec Ideal S512x2048 .i32)
    (xq : Vec Ideal S512x2048 .f32) (p : Fin 512) (q : Fin 2048) :
    mulf xw (mulf (subf (mulf D (sitofp .f32 xm)) xq) (subf (mulf D (sitofp .f32 xm)) xq)) (ix2 p q)
      = xw (ix2 p q) * ((D (ix2 p q) * (((xm (ix2 p q)).toInt : ℝ) : EReal) - xq (ix2 p q))
          * (D (ix2 p q) * (((xm (ix2 p q)).toInt : ℝ) : EReal) - xq (ix2 p q))) := rfl

/-- the sum of the rows' sums, kept as a 1 × 1 array and read at its one position: the sum over all entries -/
theorem total_apply (y : FVec Ideal S512x2048 .f32) :
    extractAt ![0, 0]
      (shapeCast S1x1
        (multiReduction (F := Ideal) .add [0] S1
          (shapeCast S512x1 (multiReduction (F := Ideal) .add [1] S512 y 0x00000000#32 reduces_S512x2048_S512 (.inl rfl) rfl)
            shapeCasts_S512_S512x1)
          0x00000000#32 reduces_S512x1_S1 (.inl rfl) rfl)
        shapeCasts_S1_S1x1) inpos_S1x1_p0_0
      = ∑ p : Fin 512, ∑ q : Fin 2048, y (ix2 p q) := by
  unfold extractAt
  refine (shapeCast_apply _ shapeCasts_S1_S1x1 _ (ix1 (0 : Fin 1)) ?_).trans ?_
  · rfl
  refine (Cert.LibColSum.colSum_apply _ reduces_S512x1_S1 (.inl rfl) rfl (0 : Fin 1)).trans ?_
  refine Finset.sum_congr rfl fun p _ => ?_
  refine (shapeCast_a_a1_apply _ shapeCasts_S512_S512x1 p (0 : Fin 1)).trans ?_
  exact Cert.LibRowReduce.rowSum_apply y reduces_S512x2048_S512 (.inl rfl) rfl p

/-- the bit of "the word of a number below 2³² is the zero word": the number is zero -/
theorem cmpi_ofNat_zero (n : Nat) (h : n < 2 ^ 32) :
    IntOp.cmpi .eq (BitVec.ofNat 32 n) 0#32 = BitVec.ofBool (decide (n = 0)) := by
  unfold IntOp.cmpi
  refine congrArg BitVec.ofBool ?_
  by_cases hn : n = 0
  · subst hn; rfl
  · rw [decide_eq_false hn]
    show (BitVec.ofNat 32 n == 0#32) = false
    rw [beq_eq_false_iff_ne]
    intro e
    have := congrArg BitVec.toNat e
    rw [BitVec.toNat_ofNat, Nat.mod_eq_of_lt h] at this
    exact hn this

/-- a select on the conjunction of two decided bits is the `if` on the conjunction -/
theorem select_andi_ofBool {α : Type} (P Q : Prop) [Decidable P] [Decidable Q] (a b : α) :
    Scalar.select (IntOp.andi (BitVec.ofBool (decide P)) (BitVec.ofBool (decide Q))) a b = if P ∧ Q then a else b := by
  by_cases hP : P <;> by_cases hQ : Q <;> simp [hP, hQ, Scalar.select, IntOp.andi]

/-- the select on "row 0 and column 0" of the 8 × 128 block, at (r, c) -/
theorem origin_apply (a b : FVec Ideal S8x128 .f32) (r : Fin 8) (c : Fin 128) :
    select (andi (cmpi .eq (iota .tc S8x128 32 [0] iota_S8x128_d0_w32) (broadcast S8x128 0#32))
                 (cmpi .eq (iota .tc S8x128 32 [1] iota_S8x128_d1_w32) (broadcast S8x128 0#32))) a b (ix2 r c)
      = if r.val = 0 ∧ c.val = 0 then a (ix2 r c) else b (ix2 r c) := by
  show Scalar.select (IntOp.andi (IntOp.cmpi .eq (iota .tc S8x128 32 [0] iota_S8x128_d0_w32 (ix2 r c)) 0#32)
        (IntOp.cmpi .eq (iota .tc S8x128 32 [1] iota_S8x128_d1_w32 (ix2 r c)) 0#32)) (a (ix2 r c)) (b (ix2 r c)) = _
  rw [iota_single_apply, iota_single_apply]
  show Scalar.select (IntOp.andi (IntOp.cmpi .eq (BitVec.ofNat 32 r.val) 0#32)
        (IntOp.cmpi .eq (BitVec.ofNat 32 c.val) 0#32)) (a (ix2 r c)) (b (ix2 r c)) = _
  rw [cmpi_ofNat_zero r.val (by have := r.isLt; omega), cmpi_ofNat_zero c.val (by have := c.isLt; omega)]
  exact select_andi_ofBool _ _ _ _

theorem pay2_apply (xu : Vec Ideal S512x32 .f32) (xv : Vec Ideal S2048x32 .f32) (xw : Vec Ideal S512x2048 .f32) (xm : Vec Ideal S512x2048 .i32) (xq : Vec Ideal S512x2048 .f32) (xo : Vec Ideal S8x128 .f32) (r : Fin 8) (c : Fin 128) :
    k0_pay2 (F := Ideal) xu xv xw xm xq xo (ix2 r c)
      = xo (ix2 r c) + (if r.val = 0 ∧ c.val = 0 then tileLoss xu xv xm xq xw else 0) := by
  unfold k0_pay2
  refine (addf_apply _ _ (ix2 r c)).trans ?_
  refine congrArg₂ (fun a b : EReal => a + b) ?_ ?_
  · exact congrFun (shapeCast_self xo shapeCasts_S8x128_S8x128) (ix2 r c)
  refine (origin_apply _ _ r c).trans ?_
  refine congrArg₂ (fun a b : EReal => if r.val = 0 ∧ c.val = 0 then a else b) ?_ ?_
  · refine (total_apply _).trans ?_
    unfold tileLoss Cert.Spec.loss
    refine Finset.sum_congr rfl fun p _ => Finset.sum_congr rfl fun q _ => ?_
    refine (entry_apply _ xw xm xq p q).trans ?_
    unfold Cert.Spec.entry Cert.Spec.resid
    rw [dot_apply xu xv p q]
  · exact Ideal.ofBits_zero_f32

end Cert.KernelIdeal.BlockValue
end
-- ==== Proof.Accum.lean ====
/-
  The output block is an accumulator over the column tiles.

  The output window's block index is the row tile alone, so one 8 × 128 block stays in its staging buffer through
  the four column tiles of a row tile. The body resets it at the first column tile and adds, at the block's
  origin, the loss of the tile it is visiting. Hence after any grid point the block is zero except at its
  origin, which holds the running sum of the tile losses since the last reset — by induction on the point.
-/
import proofs.«143419_j71854802862666_2_alg».proof.Proof.Gen.KernelIdeal.Frame
import proofs.«143419_j71854802862666_2_alg».proof.Proof.Spec
import proofs.«143419_j71854802862666_2_alg».proof.Proof.Pieces
import proofs.«143419_j71854802862666_2_alg».proof.Proof.BlockValue
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.Accum

open Cert.KernelIdeal Cert.KernelIdeal.Gen Cert.KernelIdeal.BlockValue Cert.KernelIdeal.Pieces
open Idealize.ShloMosaic.ValueIdx
open scoped BigOperators

variable (m : (ℓ : Loc nD τ sig) → Buf (Elt Ideal) ℓ)

/-- The loss of the tile the body sees at grid point `t`: that of the five input blocks staged there. -/
def tileAt (c : Dev nD) (t : Fin cfg0.N) : EReal :=
  tileLoss (iblk m c 0 t) (iblk m c 1 t) (iblk m c 2 t) (iblk m c 3 t) (iblk m c 4 t)

/-- The running sum the origin of the output block holds after point `n`: restarted at every first column tile
    (the points divisible by 4), otherwise the sum so far plus the point's tile. -/
def run (c : Dev nD) : (n : ℕ) → n < cfg0.N → EReal
  | 0, h => tileAt m c ⟨0, h⟩
  | n + 1, h => if (n + 1) % 4 = 0 then tileAt m c ⟨n + 1, h⟩
      else run c n (Nat.lt_of_succ_lt h) + tileAt m c ⟨n + 1, h⟩

/-- An 8 × 128 block that is `s` at its origin and zero elsewhere. -/
def atOrigin (s : EReal) : Vec Ideal S8x128 .f32 := fun y => if (y 0).val = 0 ∧ (y 1).val = 0 then s else 0

theorem atOrigin_apply (s : EReal) (r : Fin 8) (c : Fin 128) :
    atOrigin s (ix2 r c) = if r.val = 0 ∧ c.val = 0 then s else 0 := rfl

/-- The body's arithmetic over the zero block leaves the tile's loss at the origin. -/
theorem reset_eq (xu : Vec Ideal S512x32 .f32) (xv : Vec Ideal S2048x32 .f32) (xm : Vec Ideal S512x2048 .i32)
    (xq xw : Vec Ideal S512x2048 .f32) :
    k0_pay2 (F := Ideal) xu xv xw xm xq (k0_pay1 (F := Ideal)) = atOrigin (tileLoss xu xv xm xq xw) := by
  funext y
  obtain ⟨r, c, rfl⟩ : ∃ (r : Fin 8) (c : Fin 128), y = ix2 r c := ⟨y 0, y 1, eq_ix2 y⟩
  rw [pay2_apply, pay1_apply, zero_add, atOrigin_apply]

/-- Over a block holding `s` at the origin and zero elsewhere it leaves `s` plus the tile's loss at the origin. -/
theorem step_eq (xu : Vec Ideal S512x32 .f32) (xv : Vec Ideal S2048x32 .f32) (xm : Vec Ideal S512x2048 .i32)
    (xq xw : Vec Ideal S512x2048 .f32) (s : EReal) :
    k0_pay2 (F := Ideal) xu xv xw xm xq (atOrigin s) = atOrigin (s + tileLoss xu xv xm xq xw) := by
  funext y
  obtain ⟨r, c, rfl⟩ : ∃ (r : Fin 8) (c : Fin 128), y = ix2 r c := ⟨y 0, y 1, eq_ix2 y⟩
  rw [pay2_apply, atOrigin_apply, atOrigin_apply]
  split <;> simp

/-- What the output block's staging buffer holds after point `n`: the running sum at the origin, zero elsewhere —
    by induction on the point. -/
theorem outsAt_eq (c : Dev nD) : ∀ (n : ℕ) (h : n < cfg0.N), outsAt0 m c n h = atOrigin (run m c n h)
  | 0, h => by
    rw [outsAt0_A m c ⟨0, h⟩ rfl, out_A, reset_eq]
    rfl
  | n + 1, h => by
    by_cases h0 : (n + 1) % 4 = 0
    · rw [outsAt0_A m c ⟨n + 1, h⟩ h0, out_A, reset_eq]
      show atOrigin (tileAt m c ⟨n + 1, h⟩) = atOrigin (run m c (n + 1) h)
      rw [run, if_pos h0]
    · rw [outsAt0_B m c ⟨n + 1, h⟩ h0, out_B]
      show k0_pay2 _ _ _ _ _ (outsAt0 m c n _) = _
      rw [outsAt_eq c n, step_eq]
      show atOrigin (run m c n _ + tileAt m c ⟨n + 1, h⟩) = atOrigin (run m c (n + 1) h)
      rw [run, if_neg h0]

end Cert.KernelIdeal.Accum

end
-- ==== Proof.OutArray.lean ====
/-
  The pallas_call's result array after the run.

  The output block of row tile `i` is written back once, after the row tile's last column tile (grid point
  `4 i + 3`), into rows `8 i … 8 i + 7` of the 64 × 128 result array. The eight write-backs cover the array, so it
  ends holding, at row `8 i` and column 0, row tile `i`'s running sum over its four column tiles, and zero
  everywhere else.
-/
import proofs.«143419_j71854802862666_2_alg».proof.Proof.Gen.KernelIdeal.Frame
import proofs.«143419_j71854802862666_2_alg».proof.Proof.Spec

import proofs.«143419_j71854802862666_2_alg».proof.Proof.Accum
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.OutArray

open Cert.KernelIdeal Cert.KernelIdeal.Gen Cert.KernelIdeal.Accum
open Idealize.ShloMosaic.ValueIdx
open scoped BigOperators

variable (m : (ℓ : Loc nD τ sig) → Buf (Elt Ideal) ℓ)

/-- The output window's block at point `t` is block row `t / 4` (the row tile), block column 0. -/
theorem idx_out : ∀ t : Fin cfg0.N, win0_5.index t 0 = t.val / 4 ∧ win0_5.index t 1 = 0 :=
  (by decide +kernel : ∀ t : Fin grid0.N, win0_5.index t 0 = t.val / 4 ∧ win0_5.index t 1 = 0)

theorem run_congr (c : Dev nD) {n n' : ℕ} (e : n = n') (h : n < cfg0.N) (h' : n' < cfg0.N) :
    run m c n h = run m c n' h' := by subst e; rfl

/-- The last column tile of row tile `i` is grid point `4 i + 3`. -/
theorem last_lt (i : ℕ) (hi : i < 8) : 4 * i + 3 < cfg0.N := by
  rw [show cfg0.N = 32 from N_0]; omega

/-- What the 64 × 128 output array ends holding: row `8 i`, column 0 holds row tile `i`'s running sum after its last
    column tile; every other entry is zero. -/
def outFn (c : Dev nD) : S64x128.Idx → EReal := fun y =>
  if (y 0).val % 8 = 0 ∧ (y 1).val = 0 then
    run m c (4 * ((y 0).val / 8) + 3) (last_lt _ (by have : (y 0).val < 64 := (y 0).isLt; omega))
  else 0

/-- The same, as contents of the pallas_call's result array. -/
abbrev outArr (c : Dev nD) : Buf (Elt Ideal) ((c : Thread nD τ).loc main_v0) := outFn m c

theorem outFn_origin (c : Dev nD) (y : S64x128.Idx) (n : ℕ) (hn : n < cfg0.N) (h0 : (y 0).val % 8 = 0)
    (h1 : (y 1).val = 0) (e : 4 * ((y 0).val / 8) + 3 = n) : outFn m c y = run m c n hn := by
  unfold outFn; rw [if_pos ⟨h0, h1⟩]; exact run_congr m c e _ _

theorem outFn_off (c : Dev nD) (y : S64x128.Idx) (h : ¬((y 0).val % 8 = 0 ∧ (y 1).val = 0)) : outFn m c y = 0 :=
  if_neg h

/-- The write-backs happen after the last column tile of each row tile, and write that block of `outArr`: the
    block's entry (r, l) is the array's entry (8 (t / 4) + r, l). -/
theorem flushed_eq (c : Dev nD) (t : Fin cfg0.N) (hf : (cfg0.win 5).flush t = true) :
    (dats m 0 c).flushed 5 t = ((cfg0.win 5).blk t).view.read (Elt Ideal) (outArr m c) := by
  have h3 : t.val % 4 = 3 := (flush0_5 t).mp hf
  show (cfg0.win 5).cut (grid0.coords t) ((dats m 0 c).after 5 t) = _
  rw [after0_5, outsAt_eq]
  funext y
  show atOrigin (run m c t.val t.isLt) y = outFn m c (((cfg0.win 5).blk t).view.emb y)
  obtain ⟨i0, i1⟩ := idx_out t
  have e0 : ((((cfg0.win 5).blk t).view.emb y) 0).val = win0_5.index t 0 * 8 + 1 * (y 0).val := rfl
  have e1 : ((((cfg0.win 5).blk t).view.emb y) 1).val = win0_5.index t 1 * 128 + 1 * (y 1).val := rfl
  have hy0 : (y 0).val < 8 := (y 0).isLt
  have hy1 : (y 1).val < 128 := (y 1).isLt
  by_cases ho : (y 0).val = 0 ∧ (y 1).val = 0
  · rw [outFn_origin m c _ t.val t.isLt (by rw [e0, i0]; omega) (by rw [e1, i1]; omega) (by rw [e0, i0]; omega)]
    exact if_pos ho
  · rw [outFn_off m c _ (by rw [e0, e1, i0, i1]; omega)]
    exact if_neg ho

/-- An index of the array is in point `t`'s block iff each coordinate is in the block's range on its axis. -/
theorem mem_blk (t : Fin cfg0.N) (i : S64x128.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v0).slice (win0_5.rect t)).set ↔ _
  rw [View.set_slice_whole, Rect.mem_set_unit]
  exact Iff.rfl

/-- Every entry of the array is written back: row `r` by the last point of row tile `r / 8`. -/
theorem cover (i : S64x128.Idx) : ∃ t : Fin cfg0.N, (cfg0.win 5).flush t = true ∧ i ∈ ((cfg0.win 5).blk t).view.set := by
  have hi0 : (i 0).val < 64 := (i 0).isLt
  have hi1 : (i 1).val < 128 := (i 1).isLt
  obtain ⟨t, tv⟩ : ∃ t : Fin cfg0.N, t.val = 4 * ((i 0).val / 8) + 3 := ⟨⟨4 * ((i 0).val / 8) + 3, last_lt _ (by omega)⟩, rfl⟩
  obtain ⟨q0, q1⟩ := idx_out t
  refine ⟨t, (flush0_5 t).mpr (by omega), ?_⟩
  rw [mem_blk]
  intro a
  match a with
  | ⟨0, _⟩ => show win0_5.index t 0 * 8 ≤ (i 0).val ∧ (i 0).val < win0_5.index t 0 * 8 + 8; omega
  | ⟨1, _⟩ => show win0_5.index t 1 * 128 ≤ (i 1).val ∧ (i 1).val < win0_5.index t 1 * 128 + 128; omega

/-- So the result array of the pallas_call ends holding `outArr`. -/
theorem final (c : Dev nD) : (dats m 0 c).arrAt 5 cfg0.N = outArr m c :=
  (dats m 0 c).arrAt_eq_of_cover 5 (outArr m c) (flushed_eq m c) (cover)

end Cert.KernelIdeal.OutArray

end
-- ==== Proof.LibFinTiles.lean ====
import Idealize.ShloMosaic.Lib.ValueIdx

/-! # A sum over `Fin n` taken tile by tile

When `n = a · b`, the positions below `n` are the positions `i · b + p` of `a` consecutive tiles of `b` positions
(division with remainder), so a sum over `Fin n` is the sum over the tiles of the sums over each tile's positions. The
position map `r` is a parameter, known only through its values, so that a caller's own indexing of the tiles can be
used as it stands. Stated for any commutative additive monoid: only commutativity and associativity of addition are
used (so it applies on the extended reals, where nothing may be cancelled). -/

namespace Cert.FinTiles

open scoped BigOperators

/-- A sum over `a · b` positions taken tile by tile. Position `r i p` is `i · b + p`; every position below `a · b` is
`i · b + p` for exactly one tile `i < a` and one offset `p < b`, so the two sides add the same terms. -/
theorem sum_fin_tiles {M : Type} [AddCommMonoid M] (a b n : ℕ) (h : a * b = n) (f : Fin n → M)
    (r : Fin a → Fin b → Fin n) (hr : ∀ i p, (r i p).val = i.val * b + p.val) :
    ∑ x : Fin n, f x = ∑ i : Fin a, ∑ p : Fin b, f (r i p) := by
  subst h
  refine (Equiv.sum_comp (finProdFinEquiv (m := a) (n := b)) f).symm.trans ?_
  rw [Fintype.sum_prod_type]
  refine Finset.sum_congr rfl fun i _ => Finset.sum_congr rfl fun p _ => ?_
  refine congrArg f (Fin.ext ?_)
  rw [hr, finProdFinEquiv_apply_val]
  show p.val + b * i.val = i.val * b + p.val
  rw [Nat.mul_comm, Nat.add_comm]

end Cert.FinTiles
-- ==== Proof.Tiles.lean ====
import proofs.«143419_j71854802862666_2_alg».proof.Proof.Spec
import proofs.«143419_j71854802862666_2_alg».proof.Proof.LibFinTiles

/-! # Sums taken tile by tile

Finite-sum bookkeeping in a commutative additive monoid: a sum over `a · b` consecutive positions is the sum over `a`
tiles of the sums over each tile's `b` positions (division with remainder), so a double sum over 4096 × 8192 positions
is the sum over the 8 × 4 tiles of 512 × 2048 positions, and the loss is the sum of the tiles' losses. Only
commutativity and associativity of addition are used. -/

noncomputable section

namespace Cert.Tiles

open Cert.Spec Cert.FinTiles

open scoped BigOperators

/-- a double sum over 4096 × 8192 positions taken tile by tile: 8 × 4 tiles of 512 × 2048 -/
theorem sum_tiles2 {M : Type} [AddCommMonoid M] (f : Fin 4096 → Fin 8192 → M) :
    ∑ a : Fin 4096, ∑ b : Fin 8192, f a b = ∑ i : Fin 8, ∑ j : Fin 4, ∑ p : Fin 512, ∑ q : Fin 2048, f (row i p) (col j q) := by
  -- rows first: 4096 = 8 · 512
  refine (sum_fin_tiles 8 512 4096 rfl (fun a => ∑ b : Fin 8192, f a b) row (fun _ _ => rfl)).trans ?_
  refine Finset.sum_congr rfl fun i _ => ?_
  -- then the columns of each row: 8192 = 4 · 2048; last, the sum over the column tiles moves outside the sum over the rows
  refine Eq.trans (Finset.sum_congr rfl fun p _ =>
    sum_fin_tiles 4 2048 8192 rfl (fun b => f (row i p) b) col (fun _ _ => rfl)) ?_
  exact Finset.sum_comm

/-- the loss is the sum of the 32 tiles' losses (each tile the restriction of the arrays to its rows and columns) -/
theorem loss_tiles (U : Fin 4096 → Fin 32 → EReal) (V : Fin 8192 → Fin 32 → EReal) (M : Fin 4096 → Fin 8192 → BitVec 32) (Q W : Fin 4096 → Fin 8192 → EReal) :
    loss U V M Q W = ∑ i : Fin 8, ∑ j : Fin 4,
      loss (fun p k => U (row i p) k) (fun q k => V (col j q) k) (fun p q => M (row i p) (col j q)) (fun p q => Q (row i p) (col j q)) (fun p q => W (row i p) (col j q)) := by
  -- the loss is the double sum of the entries; an entry of a restricted tile is the arrays' entry at the tile's row and column
  refine (sum_tiles2 (entry U V M Q W)).trans ?_
  refine Finset.sum_congr rfl fun i _ => Finset.sum_congr rfl fun j _ => ?_
  refine Finset.sum_congr rfl fun p _ => Finset.sum_congr rfl fun q _ => ?_
  exact (entry_restrict (row i) (col j) U V M Q W p q).symm

/-- an 64 × 128 array that is zero except at the first entry of every eighth row sums to the sum of those entries -/
theorem sum_origins {M : Type} [AddCommMonoid M] (g : Fin 8 → M) :
    ∑ r : Fin 64, ∑ c : Fin 128, (if r.val % 8 = 0 ∧ c.val = 0 then g ⟨r.val / 8, by have := r.isLt; omega⟩ else 0) = ∑ i : Fin 8, g i := by
  -- in every row only the entry in column 0 can be nonzero
  have hrow : ∀ r : Fin 64,
      ∑ c : Fin 128, (if r.val % 8 = 0 ∧ c.val = 0 then g ⟨r.val / 8, by have := r.isLt; omega⟩ else 0)
        = if r.val % 8 = 0 then g ⟨r.val / 8, by have := r.isLt; omega⟩ else 0 := by
    intro r
    refine (Fintype.sum_eq_single (0 : Fin 128) ?_).trans ?_
    · intro c hc
      have hc' : c.val ≠ 0 := fun h => hc (Fin.ext h)
      exact if_neg (fun h => hc' h.2)
    · by_cases h : r.val % 8 = 0
      · rw [if_pos ⟨h, rfl⟩, if_pos h]
      · rw [if_neg (fun h' => h h'.1), if_neg h]
  refine (Finset.sum_congr rfl fun r _ => hrow r).trans ?_
  -- the rows in groups of eight, 64 = 8 · 8: row 8 i + s is a multiple of eight only for s = 0, and then its quotient is i
  refine (sum_fin_tiles 8 8 64 rfl
    (fun r : Fin 64 => if r.val % 8 = 0 then g ⟨r.val / 8, by have := r.isLt; omega⟩ else 0)
    (fun i s => ⟨i.val * 8 + s.val, by have := i.isLt; have := s.isLt; omega⟩) (fun _ _ => rfl)).trans ?_
  refine Finset.sum_congr rfl fun i _ => ?_
  refine (Fintype.sum_eq_single (0 : Fin 8) ?_).trans ?_
  · intro s hs
    have hs' : s.val ≠ 0 := fun h => hs (Fin.ext h)
    have hlt := s.isLt
    refine if_neg ?_
    show ¬ (i.val * 8 + s.val) % 8 = 0
    omega
  · have h0 : (i.val * 8 + (0 : Fin 8).val) % 8 = 0 := by
      show (i.val * 8 + 0) % 8 = 0
      omega
    refine (if_pos h0).trans ?_
    refine congrArg g (Fin.ext ?_)
    show (i.val * 8 + 0) / 8 = i.val
    omega

/-- four terms added left to right are their sum -/
theorem chain4 {M : Type} [AddCommMonoid M] (s : Fin 4 → M) : ((s 0 + s 1) + s 2) + s 3 = ∑ j : Fin 4, s j :=
  (Fin.sum_univ_four s).symm

end Cert.Tiles

end
-- ==== Proof.KernelLoss.lean ====
/-
  The kernel's main loss: the host's sum of the pallas_call's result array is the loss of the whole arrays.

  At grid point `t` the five input windows stage the blocks of row tile `t / 4` and column tile `t % 4`, so the
  tile the body sees there is the restriction of the argument arrays to that tile. The result array holds, per row
  tile, its four tiles' losses added left to right, and zeros; summed from zero that is the sum of the 32 tiles'
  losses, which is the loss over all 4096 × 8192 entries. Only commutativity and associativity of addition on the
  extended reals are used.
-/
import proofs.«143419_j71854802862666_2_alg».proof.Proof.Gen.KernelIdeal.Frame
import proofs.«143419_j71854802862666_2_alg».proof.Proof.Spec

import proofs.«143419_j71854802862666_2_alg».proof.Proof.OutArray
import proofs.«143419_j71854802862666_2_alg».proof.Proof.Tiles
import Idealize.ShloMosaic.PureOps.Ideal.Laws
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.Pipeline (Dat)

namespace Cert.KernelIdeal.KernelLoss

open Cert.KernelIdeal Cert.KernelIdeal.Gen Cert.KernelIdeal.BlockValue Cert.KernelIdeal.Accum Cert.KernelIdeal.OutArray
open Cert.Spec
open Idealize.ShloMosaic.ValueIdx
open scoped BigOperators

variable (m : (ℓ : Loc nD τ sig) → Buf (Elt Ideal) ℓ)

/-- The input windows' block indices at point `t`: the user block follows the row tile `t / 4`, the item block the
    column tile `t % 4`, the mask, observed and weight blocks both. -/
theorem idx_in : ∀ t : Fin cfg0.N,
    win0_0.index t 0 = t.val / 4 ∧ win0_0.index t 1 = 0 ∧ win0_1.index t 0 = t.val % 4 ∧ win0_1.index t 1 = 0
    ∧ win0_2.index t 0 = t.val / 4 ∧ win0_2.index t 1 = t.val % 4
    ∧ win0_3.index t 0 = t.val / 4 ∧ win0_3.index t 1 = t.val % 4
    ∧ win0_4.index t 0 = t.val / 4 ∧ win0_4.index t 1 = t.val % 4 :=
  (by decide +kernel : ∀ t : Fin grid0.N,
    win0_0.index t 0 = t.val / 4 ∧ win0_0.index t 1 = 0 ∧ win0_1.index t 0 = t.val % 4 ∧ win0_1.index t 1 = 0
    ∧ win0_2.index t 0 = t.val / 4 ∧ win0_2.index t 1 = t.val % 4
    ∧ win0_3.index t 0 = t.val / 4 ∧ win0_3.index t 1 = t.val % 4
    ∧ win0_4.index t 0 = t.val / 4 ∧ win0_4.index t 1 = t.val % 4)

/-- The user block at point `t`: rows `512 (t / 4) + p` of the user embeddings. -/
theorem blk_users (c : Dev nD) (t : Fin cfg0.N) (i : Fin 8) (hi : i.val = t.val / 4) (p : Fin 512) (k : Fin 32) :
    (iblk m c 0 t : Vec Ideal S512x32 .f32) (ix2 p k) = m ((c : Thread nD τ).loc main_arg0) (ix2 (row i p) k) := by
  obtain ⟨e0, e1, -⟩ := idx_in t
  show V m c main_arg0 (((cfg0.win 0).blk t).view.emb (ix2 p k)) = m ((c : Thread nD τ).loc main_arg0) (ix2 (row i p) k)
  rw [V_main_arg0]
  congr 1
  funext a; apply Fin.ext
  match a with
  | ⟨0, _⟩ => show win0_0.index t 0 * 512 + 1 * p.val = i.val * 512 + p.val; rw [e0, hi]; omega
  | ⟨1, _⟩ => show win0_0.index t 1 * 32 + 1 * k.val = k.val; rw [e1]; omega

/-- The item block at point `t`: rows `2048 (t % 4) + q` of the item embeddings. -/
theorem blk_items (c : Dev nD) (t : Fin cfg0.N) (j : Fin 4) (hj : j.val = t.val % 4) (q : Fin 2048) (k : Fin 32) :
    (iblk m c 1 t : Vec Ideal S2048x32 .f32) (ix2 q k) = m ((c : Thread nD τ).loc main_arg1) (ix2 (col j q) k) := by
  obtain ⟨-, -, e0, e1, -⟩ := idx_in t
  show V m c main_arg1 (((cfg0.win 1).blk t).view.emb (ix2 q k)) = m ((c : Thread nD τ).loc main_arg1) (ix2 (col j q) k)
  rw [V_main_arg1]
  congr 1
  funext a; apply Fin.ext
  match a with
  | ⟨0, _⟩ => show win0_1.index t 0 * 2048 + 1 * q.val = j.val * 2048 + q.val; rw [e0, hj]; omega
  | ⟨1, _⟩ => show win0_1.index t 1 * 32 + 1 * k.val = k.val; rw [e1]; omega

/-- The mask block at point `t`: rows of row tile `t / 4`, columns of column tile `t % 4`. -/
theorem blk_mask (c : Dev nD) (t : Fin cfg0.N) (i : Fin 8) (j : Fin 4) (hi : i.val = t.val / 4) (hj : j.val = t.val % 4)
    (p : Fin 512) (q : Fin 2048) :
    (iblk m c 2 t : Vec Ideal S512x2048 .i32) (ix2 p q) = m ((c : Thread nD τ).loc main_arg2) (ix2 (row i p) (col j q)) := by
  obtain ⟨-, -, -, -, e0, e1, -⟩ := idx_in t
  show V m c main_arg2 (((cfg0.win 2).blk t).view.emb (ix2 p q)) = m ((c : Thread nD τ).loc main_arg2) (ix2 (row i p) (col j q))
  rw [V_main_arg2]
  congr 1
  funext a; apply Fin.ext
  match a with
  | ⟨0, _⟩ => show win0_2.index t 0 * 512 + 1 * p.val = i.val * 512 + p.val; rw [e0, hi]; omega
  | ⟨1, _⟩ => show win0_2.index t 1 * 2048 + 1 * q.val = j.val * 2048 + q.val; rw [e1, hj]; omega

/-- The observed-values block at point `t`, likewise. -/
theorem blk_observed (c : Dev nD) (t : Fin cfg0.N) (i : Fin 8) (j : Fin 4) (hi : i.val = t.val / 4) (hj : j.val = t.val % 4)
    (p : Fin 512) (q : Fin 2048) :
    (iblk m c 3 t : Vec Ideal S512x2048 .f32) (ix2 p q) = m ((c : Thread nD τ).loc main_arg3) (ix2 (row i p) (col j q)) := by
  obtain ⟨-, -, -, -, -, -, e0, e1, -⟩ := idx_in t
  show V m c main_arg3 (((cfg0.win 3).blk t).view.emb (ix2 p q)) = m ((c : Thread nD τ).loc main_arg3) (ix2 (row i p) (col j q))
  rw [V_main_arg3]
  congr 1
  funext a; apply Fin.ext
  match a with
  | ⟨0, _⟩ => show win0_3.index t 0 * 512 + 1 * p.val = i.val * 512 + p.val; rw [e0, hi]; omega
  | ⟨1, _⟩ => show win0_3.index t 1 * 2048 + 1 * q.val = j.val * 2048 + q.val; rw [e1, hj]; omega

/-- The weight block at point `t`, likewise. -/
theorem blk_weight (c : Dev nD) (t : Fin cfg0.N) (i : Fin 8) (j : Fin 4) (hi : i.val = t.val / 4) (hj : j.val = t.val % 4)
    (p : Fin 512) (q : Fin 2048) :
    (iblk m c 4 t : Vec Ideal S512x2048 .f32) (ix2 p q) = m ((c : Thread nD τ).loc main_arg4) (ix2 (row i p) (col j q)) := by
  obtain ⟨-, -, -, -, -, -, -, -, e0, e1⟩ := idx_in t
  show V m c main_arg4 (((cfg0.win 4).blk t).view.emb (ix2 p q)) = m ((c : Thread nD τ).loc main_arg4) (ix2 (row i p) (col j q))
  rw [V_main_arg4]
  congr 1
  funext a; apply Fin.ext
  match a with
  | ⟨0, _⟩ => show win0_4.index t 0 * 512 + 1 * p.val = i.val * 512 + p.val; rw [e0, hi]; omega
  | ⟨1, _⟩ => show win0_4.index t 1 * 2048 + 1 * q.val = j.val * 2048 + q.val; rw [e1, hj]; omega

/-- The whole arrays' loss restricted to tile (i, j). -/
abbrev tileOf (c : Dev nD) (i : Fin 8) (j : Fin 4) : EReal :=
  loss (fun (p : Fin 512) (k : Fin 32) => m ((c : Thread nD τ).loc main_arg0) (ix2 (row i p) k))
    (fun (q : Fin 2048) (k : Fin 32) => m ((c : Thread nD τ).loc main_arg1) (ix2 (col j q) k))
    (fun p q => m ((c : Thread nD τ).loc main_arg2) (ix2 (row i p) (col j q)))
    (fun p q => m ((c : Thread nD τ).loc main_arg3) (ix2 (row i p) (col j q)))
    (fun p q => m ((c : Thread nD τ).loc main_arg4) (ix2 (row i p) (col j q)))

/-- The tile the body sees at point `t` is tile (t / 4, t % 4) of the argument arrays. -/
theorem tileAt_eq (c : Dev nD) (t : Fin cfg0.N) (i : Fin 8) (j : Fin 4) (hi : i.val = t.val / 4) (hj : j.val = t.val % 4) :
    tileAt m c t = tileOf m c i j := by
  unfold tileAt tileLoss tileOf
  simp only [blk_users m c t i hi, blk_items m c t j hj, blk_mask m c t i j hi hj, blk_observed m c t i j hi hj,
    blk_weight m c t i j hi hj]

theorem run_reset (c : Dev nD) (n : ℕ) (h : n < cfg0.N) (h0 : n % 4 = 0) : run m c n h = tileAt m c ⟨n, h⟩ := by
  cases n with
  | zero => rfl
  | succ n => rw [run, if_pos h0]

theorem run_step (c : Dev nD) (n : ℕ) (h : n + 1 < cfg0.N) (h0 : ¬(n + 1) % 4 = 0) :
    run m c (n + 1) h = run m c n (Nat.lt_of_succ_lt h) + tileAt m c ⟨n + 1, h⟩ := by
  rw [run, if_neg h0]

/-- The grid point of tile (i, j). -/
def pt (i : Fin 8) (j : Fin 4) : Fin cfg0.N :=
  ⟨4 * i.val + j.val, by rw [show cfg0.N = 32 from N_0]; have := i.isLt; have := j.isLt; omega⟩

/-- After a row tile's last column tile the running sum is the four tiles' losses added left to right. -/
theorem run_last (c : Dev nD) (i : Fin 8) :
    run m c (4 * i.val + 3) (last_lt _ i.isLt)
      = ((tileAt m c (pt i 0) + tileAt m c (pt i 1)) + tileAt m c (pt i 2)) + tileAt m c (pt i 3) := by
  have hN : cfg0.N = 32 := N_0
  have i8 := i.isLt
  have h0 : 4 * i.val < cfg0.N := by omega
  have h1 : 4 * i.val + 1 < cfg0.N := by omega
  have h2 : 4 * i.val + 2 < cfg0.N := by omega
  have h3 : 4 * i.val + 3 < cfg0.N := by omega
  have e3 : run m c (4 * i.val + 3) h3 = run m c (4 * i.val + 2) h2 + tileAt m c ⟨4 * i.val + 3, h3⟩ :=
    run_step m c (4 * i.val + 2) h3 (by omega)
  have e2 : run m c (4 * i.val + 2) h2 = run m c (4 * i.val + 1) h1 + tileAt m c ⟨4 * i.val + 2, h2⟩ :=
    run_step m c (4 * i.val + 1) h2 (by omega)
  have e1 : run m c (4 * i.val + 1) h1 = run m c (4 * i.val) h0 + tileAt m c ⟨4 * i.val + 1, h1⟩ :=
    run_step m c (4 * i.val) h1 (by omega)
  have e0 : run m c (4 * i.val) h0 = tileAt m c ⟨4 * i.val, h0⟩ := run_reset m c _ h0 (by omega)
  rw [e3, e2, e1, e0]
  rfl

/-- The entries of the result array add up to the loss of the whole argument arrays: the eight row tiles' sums, each
    its four tiles' losses, are the 32 tiles' losses, which add up to the loss. -/
theorem sum_out (c : Dev nD) :
    ∑ y : S64x128.Idx, outFn m c y
      = loss (fun (a : Fin 4096) (k : Fin 32) => m ((c : Thread nD τ).loc main_arg0) (ix2 a k))
          (fun (b : Fin 8192) (k : Fin 32) => m ((c : Thread nD τ).loc main_arg1) (ix2 b k))
          (fun a b => m ((c : Thread nD τ).loc main_arg2) (ix2 a b))
          (fun a b => m ((c : Thread nD τ).loc main_arg3) (ix2 a b))
          (fun a b => m ((c : Thread nD τ).loc main_arg4) (ix2 a b)) := by
  rw [sum_idx2, Cert.Tiles.loss_tiles]
  refine (Cert.Tiles.sum_origins fun i : Fin 8 => run m c (4 * i.val + 3) (last_lt _ i.isLt)).trans ?_
  refine Finset.sum_congr rfl fun i _ => ?_
  rw [run_last]
  refine (Cert.Tiles.chain4 fun j : Fin 4 => tileAt m c (pt i j)).trans ?_
  refine Finset.sum_congr rfl fun j _ => ?_
  exact tileAt_eq m c (pt i j) i j (by show i.val = (4 * i.val + j.val) / 4; have := j.isLt; omega)
    (by show j.val = (4 * i.val + j.val) % 4; have := j.isLt; omega)

/-- The host's sum of the result array from zero is that loss. -/
theorem reduce_out (c : Dev nD) :
    Host.reduceAdd (F := Ideal) (outArr m c) (constant S_ .f32 0x00000000#32) reducesTo_S64x128_S_d0_1 h_S_
      = fun _ => loss (fun (a : Fin 4096) (k : Fin 32) => m ((c : Thread nD τ).loc main_arg0) (ix2 a k))
          (fun (b : Fin 8192) (k : Fin 32) => m ((c : Thread nD τ).loc main_arg1) (ix2 b k))
          (fun a b => m ((c : Thread nD τ).loc main_arg2) (ix2 a b))
          (fun a b => m ((c : Thread nD τ).loc main_arg3) (ix2 a b))
          (fun a b => m ((c : Thread nD τ).loc main_arg4) (ix2 a b)) := by
  funext j
  refine (Ideal.hostReduceAdd_total reducesTo_S64x128_S_d0_1 (fun b => b.elim0) _ _ j).trans ?_
  rw [constant_apply, Ideal.ofBits_zero_f32, zero_add]
  exact sum_out m c

end Cert.KernelIdeal.KernelLoss

end
-- ==== Proof.KernelRun.lean ====
/-
  The idealized kernel program's run, read: its result is the loss of the whole argument arrays plus one tenth of
  the region loss.

  The generated frame run leaves the pallas_call's result array at what the write-backs put there and the program's
  result at what the lines after the region compute from it. The result array's entries add up to the loss
  (the accumulation over the column tiles and the tiling of the sum); the argument arrays those lines read are
  unchanged by the region.
-/
import proofs.«143419_j71854802862666_2_alg».proof.Proof.Tail
import proofs.«143419_j71854802862666_2_alg».proof.Proof.KernelLoss

noncomputable section

open Idealize.ShloMosaic Idealize.ShloMosaic.TcCoe Idealize.SL.Sem
open Idealize.ShloMosaic.Pipeline (Dat)

namespace Cert.KernelIdeal.KernelRun

open Cert.KernelIdeal Cert.KernelIdeal.Gen Cert.KernelIdeal.Tail Cert.KernelIdeal.OutArray Cert.KernelIdeal.KernelLoss
open Cert.Spec
open Idealize.ShloMosaic.ValueIdx

variable (m : (ℓ : Loc nD τ sig) → Buf (Elt Ideal) ℓ) (ρ : Dev nD → PrngReg)

/-- When the region ends its result array holds the row tiles' sums. -/
theorem exit_out (c : Dev nD) : atExit m c main_v0 = outArr m c :=
  (Pipeline.withArrays_arr spec0 launch0.win.arr_inj c _ _ 5).trans (final m c)

/-- The user embeddings are an input array of the pipeline: unchanged. -/
theorem exit_users (c : Dev nD) : atExit m c main_arg0 = m ((c : Thread nD τ).loc main_arg0) :=
  (Pipeline.withArrays_arr spec0 launch0.win.arr_inj c _ _ 0).trans
    (((dats m 0 c).arrAt_in 0 rfl _).trans ((A_eq m c 0).trans (V_main_arg0 m c)))

/-- The region indices are no array of the pipeline: unchanged. -/
theorem exit_regions (c : Dev nD) : atExit m c main_arg5 = m ((c : Thread nD τ).loc main_arg5) :=
  (Pipeline.withArrays_of_ne _ c (V0 m c) _ main_arg5 (by decide)).trans (V_main_arg5 m c)

/-- The program's result: the loss over all users and items plus the region term. -/
def result (c : Dev nD) : Buf (Elt Ideal) ((c : Thread nD τ).loc main_v39) :=
  addf (fun _ => loss (fun (a : Fin 4096) (k : Fin 32) => m ((c : Thread nD τ).loc main_arg0) (ix2 a k))
          (fun (b : Fin 8192) (k : Fin 32) => m ((c : Thread nD τ).loc main_arg1) (ix2 b k))
          (fun a b => m ((c : Thread nD τ).loc main_arg2) (ix2 a b))
          (fun a b => m ((c : Thread nD τ).loc main_arg3) (ix2 a b))
          (fun a b => m ((c : Thread nD τ).loc main_arg4) (ix2 a b)))
    (regionTerm (m ((c : Thread nD τ).loc main_arg0)) (m ((c : Thread nD τ).loc main_arg5)))

theorem result_eq (c : Dev nD) :
    Pipeline.afterTail₀ cfgs (dats m) 0 (V0 m) [hostOps1, hostOps1_1, hostOps1_2] c main_v39 = result m c := by
  rw [tail_eq, exit_out, exit_users, exit_regions, reduce_out]
  rfl

/-- Every weakly fair execution of the idealized kernel program terminates with its result at `result` and its
    arguments unchanged. -/
theorem run : θ_run defs (onTc (τ := τ) (main (F := Ideal))) ⟨m, fun _ => 0, ρ⟩ fun r => ∀ c : Dev nD,
      r.2.mem ((c.tc : Thread nD τ).loc main_v39) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨
      ((h c).2 main_v39 (Pipeline.mem_restRefs_of main_v39 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.KernelIdeal.KernelRun

end
-- ==== Proof.lean ====
/-
  The certificate of a masked matrix-factorisation loss.

  Both programs compute, on the extended reals,
      ∑ₐ ∑ᵦ weight(a, b) · ((⟨user a, item b⟩ · mask(a, b) − observed(a, b))²)  +  (1/10 as a float) · region loss,
  the first sum over 4096 users and 8192 items. The reference takes one matrix product of the user embeddings with
  the transposed item embeddings and one sum over both axes. The kernel visits the entries in 8 × 4 tiles of
  512 × 2048: at each tile it forms the tile's product on the matrix unit, sums the tile's weighted squared residuals
  by rows and then columns, and adds the tile's sum to the origin of an 8 × 128 output block that stays in place over
  the four column tiles of a row tile (reset at the first); the host then sums the 64 × 128 array of those blocks.
  The two agree because a finite sum on the extended reals may be regrouped and reordered freely (addition there is
  commutative and associative; nothing is cancelled or distributed, so no finiteness of the inputs is used), and
  because at the ideal values a change of float format is the identity and the matrix unit's product into a zero
  accumulator is the same sum of products as the host's. The region loss is the same sequence of host operations
  on the same two arrays in both programs and is carried along unopened.

  The three frames: the two kernel programs' are the generated frame certificates; the reference's is its run with the
  result dropped. The idealization rewrote nothing, so it preserves the kernel trivially.
-/
import proofs.«143419_j71854802862666_2_alg».proof.Defs
import proofs.«143419_j71854802862666_2_alg».proof.Proof.Gen.Kernel
import proofs.«143419_j71854802862666_2_alg».proof.Proof.Gen.Kernel.Skeleton
import proofs.«143419_j71854802862666_2_alg».proof.Proof.Gen.Kernel.Launch
import proofs.«143419_j71854802862666_2_alg».proof.Proof.Gen.Kernel.Points
import proofs.«143419_j71854802862666_2_alg».proof.Proof.Gen.Kernel.Frame
import proofs.«143419_j71854802862666_2_alg».proof.Proof.Gen.KernelIdeal
import proofs.«143419_j71854802862666_2_alg».proof.Proof.Gen.KernelIdeal.Skeleton
import proofs.«143419_j71854802862666_2_alg».proof.Proof.Gen.KernelIdeal.Launch
import proofs.«143419_j71854802862666_2_alg».proof.Proof.Gen.KernelIdeal.Points
import proofs.«143419_j71854802862666_2_alg».proof.Proof.Gen.KernelIdeal.Frame
import proofs.«143419_j71854802862666_2_alg».proof.Proof.Gen.ReferenceIdeal
import proofs.«143419_j71854802862666_2_alg».proof.Proof.Gen.Pre_finite_inputs
import proofs.«143419_j71854802862666_2_alg».proof.Proof.RefRun
import proofs.«143419_j71854802862666_2_alg».proof.Proof.RefLoss
import proofs.«143419_j71854802862666_2_alg».proof.Proof.KernelRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

set_option maxHeartbeats 1000000 in
/-- From memories that agree on the arguments the kernel program ends at the loss of the whole arrays plus the region
    term (its run, read), and the reference at its own sum over both axes plus the same region term: the sum is that
    loss, and the region term is the same term of the same arrays. -/
theorem algebraic : Cert.algebraic_KernelIdeal_ReferenceIdeal := by
  intro m ρ m' ρ' _ hagree
  refine ⟨fun c => Cert.KernelIdeal.KernelRun.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefLoss.mainLoss_eq, (hagree c).1, (hagree c).2.1, (hagree c).2.2.1, (hagree c).2.2.2.1,
    (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
